-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x2048 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1 : Shape := ⟨3, ![4, 2048, 1]⟩
abbrev S4x8192x1 : Shape := ⟨3, ![4, 8192, 1]⟩
abbrev S4x8192x128 : Shape := ⟨3, ![4, 8192, 128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel

variable [Facts]

def fn {F : FTy → Type} [FloatOps F] (main_arg0 : IVec S4x2048x1 32) (main_arg1 : IVec S4x8192x1 32) (main_arg2 : FVec F S4x8192x128 .f32) : IVec S_ 1 :=
  let main_v0 : FVec F S4x8192x128 .f32 := Host.absf main_arg2
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  main_v3
-- ==== Kernel.lean ====
abbrev S4x2048x1 : Shape := ⟨3, ![4, 2048, 1]⟩
abbrev S4x8192x1 : Shape := ⟨3, ![4, 8192, 1]⟩
abbrev S4x8192x128 : Shape := ⟨3, ![4, 8192, 128]⟩
abbrev S4x1x8192 : Shape := ⟨3, ![4, 1, 8192]⟩
abbrev S4x2048x128 : Shape := ⟨3, ![4, 2048, 128]⟩
abbrev S1x2048x1 : Shape := ⟨3, ![1, 2048, 1]⟩
abbrev S1x1x2048 : Shape := ⟨3, ![1, 1, 2048]⟩
abbrev S1x2048x128 : Shape := ⟨3, ![1, 2048, 128]⟩
abbrev S2048x128 : Shape := ⟨2, ![2048, 128]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1, .i32⟩
  | .hbm, ⟨1, _⟩ => ⟨S4x8192x1, .i32⟩
  | .hbm, ⟨2, _⟩ => ⟨S4x8192x128, .f32⟩
  | .hbm, ⟨3, _⟩ => ⟨S4x1x8192, .i32⟩
  | .hbm, ⟨4, _⟩ => ⟨S4x2048x128, .f32⟩
  | .local _ .vmem, ⟨0, _⟩ => ⟨S1x2048x1, .i32⟩
  | .local _ .vmem, ⟨1, _⟩ => ⟨S1x2048x1, .i32⟩
  | .local _ .vmem, ⟨2, _⟩ => ⟨S1x1x2048, .i32⟩
  | .local _ .vmem, ⟨3, _⟩ => ⟨S1x1x2048, .i32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x128, .f32⟩
  | .local _ .vmem, ⟨9, _⟩ => ⟨S2048x1, .f32⟩
  | _, _ => ⟨S4x2048x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x1_S4x1x8192_0_2_1 : S4x8192x1.Transposes [0, 2, 1] S4x1x8192
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S2048x1_S2048x2048 : S2048x1.Broadcasts S2048x2048
  broadcasts_S1x2048_S2048x2048 : S1x2048.Broadcasts S2048x2048
  natLt_1_32 : 1 < 32
  bitsLt_bf16_f32 : FTy.bits .bf16 < FTy.bits .f32
  reduces_S2048x2048_S2048 : S2048x2048.Reduces [1] S2048
  shapeCasts_S2048_S2048x1 : S2048.ShapeCasts S2048x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S2048x1_S2048x128 : S2048x1.Broadcasts S2048x128
  shapeCasts_S2048x128_S1x2048x128 : S2048x128.ShapeCasts S1x2048x128
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S4x2048x1.size a
  hwx0_0 : ∀ i : grid0.Coords, EltTy.bits .i32 = 32 ∨ (Rect.block (s := S4x2048x1) S1x2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x8192.size a
  hwx0_1 : ∀ i : grid0.Coords, EltTy.bits .i32 = 32 ∨ (Rect.block (s := S4x1x8192) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x8192x128.size a
  hwx0_2 : ∀ i : grid0.Coords, EltTy.bits .f32 = 32 ∨ (Rect.block (s := S4x8192x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S4x2048x128.size a
  hwx0_3 : ∀ i : grid0.Coords, EltTy.bits .f32 = 32 ∨ (Rect.block (s := S4x2048x128) S1x2048x128.size (cc0_transform_3 i) (hinb0_3 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg0) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x1 : Shape := ⟨3, ![4, 2048, 1]⟩
abbrev S4x8192x1 : Shape := ⟨3, ![4, 8192, 1]⟩
abbrev S4x8192x128 : Shape := ⟨3, ![4, 8192, 128]⟩
abbrev S4x2048 : Shape := ⟨2, ![4, 2048]⟩
abbrev S4x8192 : Shape := ⟨2, ![4, 8192]⟩
abbrev S4x1x8192 : Shape := ⟨3, ![4, 1, 8192]⟩
abbrev S4x2048x8192 : Shape := ⟨3, ![4, 2048, 8192]⟩
abbrev S_ : Shape := ⟨0, ![]⟩
abbrev S4x2048x128 : Shape := ⟨3, ![4, 2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1, .i32⟩
  | .hbm, ⟨1, _⟩ => ⟨S4x8192x1, .i32⟩
  | .hbm, ⟨2, _⟩ => ⟨S4x8192x128, .f32⟩
  | .hbm, ⟨3, _⟩ => ⟨S4x2048, .i32⟩
  | .hbm, ⟨4, _⟩ => ⟨S4x2048x1, .i32⟩
  | .hbm, ⟨5, _⟩ => ⟨S4x8192, .i32⟩
  | .hbm, ⟨6, _⟩ => ⟨S4x1x8192, .i32⟩
  | .hbm, ⟨7, _⟩ => ⟨S4x2048x8192, .i32⟩
  | .hbm, ⟨8, _⟩ => ⟨S4x2048x8192, .i32⟩
  | .hbm, ⟨9, _⟩ => ⟨S4x2048x8192, .i1⟩
  | .hbm, ⟨10, _⟩ => ⟨S4x2048x8192, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x128, .f32⟩
  | .hbm, ⟨18, _⟩ => ⟨S4x2048x128, .f32⟩
  | .hbm, ⟨19, _⟩ => ⟨S4x2048x128, .f32⟩
  | _, _ => ⟨S4x2048x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S4x2048x1_S4x2048 : S4x2048x1.ShapeCasts S4x2048
  bcast_S4x2048_S4x2048x1_0_1 : S4x2048.BroadcastsInDim S4x2048x1 (![0, 1] : Fin 2 → Fin S4x2048x1.rank)
  shapeCasts_S4x8192x1_S4x8192 : S4x8192x1.ShapeCasts S4x8192
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  reducesTo_S4x2048x8192_S4x2048_d2 : S4x2048x8192.ReducesTo [2] S4x2048
  h_S_ : 0 < S_.numel
  bcast_S_S4x2048x1 : S_.BroadcastsInDim S4x2048x1 (![] : Fin 0 → Fin S4x2048x1.rank)
  bcast_S4x2048x1_S4x2048x128_0_1_2 : S4x2048x1.BroadcastsInDim S4x2048x128 (![0, 1, 2] : Fin 3 → Fin S4x2048x128.rank)
  dot_S4x2048x8192_S4x8192x128_S4x2048x128_2_1_1_2_0_0_wf : DotDims.WF S4x2048x8192 S4x8192x128 S4x2048x128 [2] [1] [1] [2] [0] [0]

variable [Facts₀]

def dot_S4x2048x8192_S4x8192x128_S4x2048x128_2_1_1_2_0_0 : DotDims S4x2048x8192 S4x8192x128 S4x2048x128 where
  lhsContracting := [2]
  rhsContracting := [1]
  lhsNonContracting := [1]
  rhsNonContracting := [2]
  lhsBatch := [0]
  rhsBatch := [0]
  wf := dot_S4x2048x8192_S4x8192x128_S4x2048x128_2_1_1_2_0_0_wf

class Facts : Prop extends Facts₀ where

variable [Facts]
-- ==== Proof.Pieces.lean ====
/-
  What each kind of grid step leaves in the two carried buffers and in the output block, as functions of what it
  loaded. A batch's first step overwrites the running total and the running count with zero and then accumulates into
  them; a later step accumulates into what the step before left; a batch's last step also writes the quotient of the
  total it has just stored by the count it has just stored plus the constant.
-/
import proofs.«154385_j2482491097343_2_alg».proof.Proof.Gen.KernelIdeal.Frame
import Idealize.ShloMosaic.Lib.Pipeline.Value
import Idealize.ShloMosaic.Lib.Tactic

noncomputable section

namespace Cert.Pool.Step

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The total after a step that found `acc`. -/
abbrev totalAfter (x0 : Vec F S1x2048x1 .i32) (x1 : Vec F S1x1x2048 .i32) (x2 : Vec F S1x2048x128 .f32)
    (acc : Vec F S2048x128 .f32) : Vec F S2048x128 .f32 := k0_pay1 (k0_pay7 x0 x1 x2 acc)

/-- The count after a step that found `cnt`. -/
abbrev countAfter (x0 : Vec F S1x2048x1 .i32) (x1 : Vec F S1x1x2048 .i32) (cnt : Vec F S2048x1 .f32) : Vec F S2048x1 .f32 :=
  k0_pay6 x0 x1 cnt

/-- A batch's first step leaves the total accumulated from zero. -/
theorem first_total (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : cond0_0 i) (hc1 : ¬cond0_1 i)
    (x0 : Vec F S1x2048x1 .i32) (x1 : Vec F S1x1x2048 .i32) (x2 : Vec F S1x2048x128 .f32) :
    sout0_A_0 c i arg2 harg2 arg3 harg3 arg4 harg4 arg5 harg5 arg6 harg6 arg7 harg7 hc0 hc1 x0 x1 x2 = totalAfter x0 x1 x2 k0_pay3 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x128) hz2, View.readCov_unit_zero (S := S2048x128) _ hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3]

/-- A batch's first step leaves the count accumulated from zero. -/
theorem first_count (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : cond0_0 i) (hc1 : ¬cond0_1 i)
    (x0 : Vec F S1x2048x1 .i32) (x1 : Vec F S1x1x2048 .i32) (x2 : Vec F S1x2048x128 .f32) :
    sout0_A_1 c i arg2 harg2 arg3 harg3 arg4 harg4 arg5 harg5 arg6 harg6 arg7 harg7 hc0 hc1 x0 x1 x2 = countAfter x0 x1 k0_pay4 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3]

/-- A middle step leaves the total accumulated from what it found. -/
theorem middle_total (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : ¬cond0_1 i)
    (x0 : Vec F S1x2048x1 .i32) (x1 : Vec F S1x1x2048 .i32) (x2 : Vec F S1x2048x128 .f32) (xs0 : Vec F S2048x128 .f32) (xs1 : Vec F S2048x1 .f32) :
    sout0_B_0 c i arg2 harg2 arg3 harg3 arg4 harg4 arg5 harg5 arg6 harg6 arg7 harg7 hc0 hc1 x0 x1 x2 xs0 xs1 = totalAfter x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3, harg6.read_unread, harg7.read_unread,
    View.ld_unit_zero (S := S2048x128) hz2, View.ld_unit_zero (S := S2048x1) hz2]

/-- A middle step leaves the count accumulated from what it found. -/
theorem middle_count (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : ¬cond0_1 i)
    (x0 : Vec F S1x2048x1 .i32) (x1 : Vec F S1x1x2048 .i32) (x2 : Vec F S1x2048x128 .f32) (xs0 : Vec F S2048x128 .f32) (xs1 : Vec F S2048x1 .f32) :
    sout0_B_1 c i arg2 harg2 arg3 harg3 arg4 harg4 arg5 harg5 arg6 harg6 arg7 harg7 hc0 hc1 x0 x1 x2 xs0 xs1 = countAfter x0 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3, harg6.read_unread, harg7.read_unread,
    View.ld_unit_zero (S := S2048x128) hz2, View.ld_unit_zero (S := S2048x1) hz2]

/-- A batch's last step leaves the total accumulated from what it found. -/
theorem last_total (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : cond0_1 i)
    (x0 : Vec F S1x2048x1 .i32) (x1 : Vec F S1x1x2048 .i32) (x2 : Vec F S1x2048x128 .f32) (xs0 : Vec F S2048x128 .f32) (xs1 : Vec F S2048x1 .f32) :
    sout0_C_0 c i arg2 harg2 arg3 harg3 arg4 harg4 arg5 harg5 arg6 harg6 arg7 harg7 hc0 hc1 x0 x1 x2 xs0 xs1 = totalAfter x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3, harg6.read_unread, harg7.read_unread,
    View.ld_unit_zero (S := S2048x128) hz2, View.ld_unit_zero (S := S2048x1) hz2]

/-- A batch's last step leaves the count accumulated from what it found. -/
theorem last_count (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : cond0_1 i)
    (x0 : Vec F S1x2048x1 .i32) (x1 : Vec F S1x1x2048 .i32) (x2 : Vec F S1x2048x128 .f32) (xs0 : Vec F S2048x128 .f32) (xs1 : Vec F S2048x1 .f32) :
    sout0_C_1 c i arg2 harg2 arg3 harg3 arg4 harg4 arg5 harg5 arg6 harg6 arg7 harg7 hc0 hc1 x0 x1 x2 xs0 xs1 = countAfter x0 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3, harg6.read_unread, harg7.read_unread,
    View.ld_unit_zero (S := S2048x128) hz2, View.ld_unit_zero (S := S2048x1) hz2]

/-- A batch's last step writes the quotient of the total and the count it has just stored. -/
theorem last_block (c : Dev nD) (i : grid0.Coords) (arg2 : Memref sig .tc .vmem S1x2048x1 .i32) (harg2 : arg2.IsWhole) (arg3 : Memref sig .tc .vmem S1x1x2048 .i32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : cond0_1 i)
    (x0 : Vec F S1x2048x1 .i32) (x1 : Vec F S1x1x2048 .i32) (x2 : Vec F S1x2048x128 .f32) (xs0 : Vec F S2048x128 .f32) (xs1 : Vec F S2048x1 .f32) :
    out0_C_3 c i arg2 harg2 arg3 harg3 arg4 harg4 arg5 harg5 arg6 harg6 arg7 harg7 hc0 hc1 x0 x1 x2 xs0 xs1 = k0_pay2 (totalAfter x0 x1 x2 xs0) (countAfter x0 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz3, View.readCov_unit_zero (S := S2048x128) _ hz2, View.readCov_unit_zero (S := S2048x1) _ hz2]
  simp only [View.readAt_eq_ld, harg2.read_unread, harg3.read_unread, harg4.read_unread, View.ld_unit_zero (S := S1x2048x1) hz3,
    View.ld_unit_zero (S := S1x1x2048) hz3, View.ld_unit_zero (S := S1x2048x128) hz3, harg6.read_unread, harg7.read_unread,
    View.ld_unit_zero (S := S2048x128) hz2, View.ld_unit_zero (S := S2048x1) hz2]

end Cert.Pool.Step

end
-- ==== Proof.Steps.lean ====
/-
  The two carried buffers and the output block after each grid step, step by step: a batch's first step starts the
  total and the count from zero, every later step continues from what the step before left, and a batch's last step
  also writes the quotient.
-/
import proofs.«154385_j2482491097343_2_alg».proof.Proof.Pieces

noncomputable section

namespace Cert.Pool.Step

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The running total after the step at position `n`. -/
abbrev totalAt (c : Dev nD) (n : ℕ) (h : n < cfg0.N) : Vec F S2048x128 .f32 := (outsAt0 m c n h).2.1
/-- The running count after the step at position `n`. -/
abbrev countAt (c : Dev nD) (n : ℕ) (h : n < cfg0.N) : Vec F S2048x1 .f32 := (outsAt0 m c n h).2.2

theorem total_first (c : Dev nD) (t : Fin cfg0.N) (h0 : t.val % 4 = 0) (h1 : ¬t.val % 4 = 3) :
    totalAt m c t.val t.isLt = totalAfter (iblk m c 0 t) (iblk m c 1 t) (iblk m c 2 t) k0_pay3 := by
  unfold totalAt
  rw [outsAt0_A m c t h0 h1]
  dsimp only
  exact first_total (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem count_first (c : Dev nD) (t : Fin cfg0.N) (h0 : t.val % 4 = 0) (h1 : ¬t.val % 4 = 3) :
    countAt m c t.val t.isLt = countAfter (iblk m c 0 t) (iblk m c 1 t) k0_pay4 := by
  unfold countAt
  rw [outsAt0_A m c t h0 h1]
  dsimp only
  exact first_count (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem total_middle (c : Dev nD) (t : Fin cfg0.N) (h0 : ¬t.val % 4 = 0) (h1 : ¬t.val % 4 = 3) :
    totalAt m c t.val t.isLt
      = totalAfter (iblk m c 0 t) (iblk m c 1 t) (iblk m c 2 t) (totalAt m c (t.val - 1) (Nat.lt_of_le_of_lt (Nat.sub_le _ _) t.isLt)) := by
  unfold totalAt
  rw [outsAt0_B m c t h0 h1]
  dsimp only
  exact middle_total (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem count_middle (c : Dev nD) (t : Fin cfg0.N) (h0 : ¬t.val % 4 = 0) (h1 : ¬t.val % 4 = 3) :
    countAt m c t.val t.isLt
      = countAfter (iblk m c 0 t) (iblk m c 1 t) (countAt m c (t.val - 1) (Nat.lt_of_le_of_lt (Nat.sub_le _ _) t.isLt)) := by
  unfold countAt
  rw [outsAt0_B m c t h0 h1]
  dsimp only
  exact middle_count (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem total_last (c : Dev nD) (t : Fin cfg0.N) (h0 : ¬t.val % 4 = 0) (h1 : t.val % 4 = 3) :
    totalAt m c t.val t.isLt
      = totalAfter (iblk m c 0 t) (iblk m c 1 t) (iblk m c 2 t) (totalAt m c (t.val - 1) (Nat.lt_of_le_of_lt (Nat.sub_le _ _) t.isLt)) := by
  unfold totalAt
  rw [outsAt0_C m c t h0 h1]
  dsimp only
  exact last_total (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem count_last (c : Dev nD) (t : Fin cfg0.N) (h0 : ¬t.val % 4 = 0) (h1 : t.val % 4 = 3) :
    countAt m c t.val t.isLt
      = countAfter (iblk m c 0 t) (iblk m c 1 t) (countAt m c (t.val - 1) (Nat.lt_of_le_of_lt (Nat.sub_le _ _) t.isLt)) := by
  unfold countAt
  rw [outsAt0_C m c t h0 h1]
  dsimp only
  exact last_count (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- Every step but a batch's first continues the total from what the step before left. -/
theorem total_next (c : Dev nD) (t : Fin cfg0.N) (h0 : ¬t.val % 4 = 0) :
    totalAt m c t.val t.isLt
      = totalAfter (iblk m c 0 t) (iblk m c 1 t) (iblk m c 2 t) (totalAt m c (t.val - 1) (Nat.lt_of_le_of_lt (Nat.sub_le _ _) t.isLt)) := by
  by_cases h1 : t.val % 4 = 3
  · exact total_last m c t h0 h1
  · exact total_middle m c t h0 h1

/-- Every step but a batch's first continues the count from what the step before left. -/
theorem count_next (c : Dev nD) (t : Fin cfg0.N) (h0 : ¬t.val % 4 = 0) :
    countAt m c t.val t.isLt
      = countAfter (iblk m c 0 t) (iblk m c 1 t) (countAt m c (t.val - 1) (Nat.lt_of_le_of_lt (Nat.sub_le _ _) t.isLt)) := by
  by_cases h1 : t.val % 4 = 3
  · exact count_last m c t h0 h1
  · exact count_middle m c t h0 h1

/-- The total and the count depend on the position only through its value. -/
theorem totalAt_congr (c : Dev nD) {n n' : ℕ} (e : n = n') (h : n < cfg0.N) (h' : n' < cfg0.N) : totalAt m c n h = totalAt m c n' h' := by
  subst e; rfl
theorem countAt_congr (c : Dev nD) {n n' : ℕ} (e : n = n') (h : n < cfg0.N) (h' : n' < cfg0.N) : countAt m c n h = countAt m c n' h' := by
  subst e; rfl

/-- The block a batch's last step writes: the quotient of the total and the count that step leaves. -/
theorem block_last (c : Dev nD) (t : Fin cfg0.N) (h0 : ¬t.val % 4 = 0) (h1 : t.val % 4 = 3) :
    (outsAt0 m c t.val t.isLt).1
      = k0_pay2 (totalAfter (iblk m c 0 t) (iblk m c 1 t) (iblk m c 2 t) (totalAt m c (t.val - 1) (Nat.lt_of_le_of_lt (Nat.sub_le _ _) t.isLt)))
          (countAfter (iblk m c 0 t) (iblk m c 1 t) (countAt m c (t.val - 1) (Nat.lt_of_le_of_lt (Nat.sub_le _ _) t.isLt))) := by
  rw [outsAt0_C m c t h0 h1]
  dsimp only
  exact last_block (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.Pool.Step

end
-- ==== Proof.Spec.lean ====
/-
  The pooled mean as one function of the three argument arrays, and the arithmetic that joins its two spellings.

  For a batch `b`, a target row `n` and a lane `d` the result is the sum, over the source rows `k` whose segment id equals
  that of target row `n`, of `x (b, k, d)`, divided by the number of such rows plus a small constant. The membership test
  is carried as an extended real that is 0 or 1 (`bit`), so the sum runs over all 8192 source rows.

  One spelling sums the 8192 rows at once. The other goes through them in four stretches of 2048 rows, adding each
  stretch's partial sum to a running total that starts at zero, and adds to every stretch a second sum whose terms are
  `bit * (x - x)`. For finite `x` those terms vanish, and a sum over 8192 rows is the sum of its four stretches.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Pool

open Idealize.ShloMosaic Idealize.ShloMosaic.ValueIdx

/-- The shapes of the three arguments and of the result. -/
abbrev STgt : Shape := ⟨3, ![4, 2048, 1]⟩
abbrev SSrc : Shape := ⟨3, ![4, 8192, 1]⟩
abbrev SArr : Shape := ⟨3, ![4, 8192, 128]⟩
abbrev SOut : Shape := ⟨3, ![4, 2048, 128]⟩

/-- A one-bit word read as the extended real 0 or 1. -/
def bit (w : BitVec 1) : EReal := ((w.toNat : ℝ) : EReal)

/-- Widening the bit to 32 bits and reading it as a signed integer gives the same 0 or 1. -/
theorem bit_signed (w : BitVec 1) : (((w.setWidth 32).toInt : ℝ) : EReal) = bit w := by
  have h : (w.setWidth 32).toInt = (w.toNat : ℤ) := by
    rcases BitVec.eq_zero_or_eq_one w with rfl | rfl <;> decide
  rw [h]; unfold bit; norm_cast

/-- Whether target row `n` and source row `k` of batch `b` carry the same segment id, as 0 or 1. -/
def same (tg : STgt.Idx → BitVec 32) (sr : SSrc.Idx → BitVec 32) (b : Fin 4) (n : Fin 2048) (k : Fin 8192) : EReal :=
  bit (IntOp.cmpi .eq (tg (ix3 b n (0 : Fin 1))) (sr (ix3 b k (0 : Fin 1))))

/-- The small constant added to the count (the single-precision word nearest to 1e-10). -/
def eps : EReal := Ideal.ofBits .f32 0x2EDBE6FF#32

/-- The pooled mean at batch `b`, target row `n`, lane `d`. -/
def pooledAt (tg : STgt.Idx → BitVec 32) (sr : SSrc.Idx → BitVec 32) (x : SArr.Idx → EReal)
    (b : Fin 4) (n : Fin 2048) (d : Fin 128) : EReal :=
  Ideal.div (∑ k : Fin 8192, same tg sr b n k * x (ix3 b k d)) ((∑ k : Fin 8192, same tg sr b n k) + eps)

/-- The pooled mean as a whole array. -/
def pooled (tg : STgt.Idx → BitVec 32) (sr : SSrc.Idx → BitVec 32) (x : SArr.Idx → EReal) : SOut.Idx → EReal :=
  fun i => pooledAt tg sr x (i 0) (i 1) (i 2)

theorem pooled_apply (tg : STgt.Idx → BitVec 32) (sr : SSrc.Idx → BitVec 32) (x : SArr.Idx → EReal)
    (b : Fin 4) (n : Fin 2048) (d : Fin 128) : pooled tg sr x (ix3 b n d) = pooledAt tg sr x b n d := rfl

/-! ## Four stretches of 2048 make 8192 -/

/-- Source row `k` of stretch `j`. -/
abbrev row (j : Fin 4) (k : Fin 2048) : Fin 8192 :=
  ⟨2048 * j.val + k.val, by have := j.isLt; have := k.isLt; omega⟩

/-- A sum over 8192 rows is the sum over the four stretches of the sums over their 2048 rows. -/
theorem sum_stretches {M : Type*} [AddCommMonoid M] (f : Fin 8192 → M) :
    ∑ k : Fin 8192, f k = ∑ j : Fin 4, ∑ k : Fin 2048, f (row j k) := by
  rw [← Equiv.sum_comp (finProdFinEquiv (m := 4) (n := 2048)) f, Fintype.sum_prod_type]
  refine Finset.sum_congr rfl fun j _ => Finset.sum_congr rfl fun k _ => congrArg f (Fin.ext ?_)
  show k.val + 2048 * j.val = 2048 * j.val + k.val
  omega

/-- The running total after the four stretches, started at zero, is the sum over all rows. -/
theorem total_eq_sum (f : Fin 8192 → EReal) :
    (((0 + ∑ k : Fin 2048, f (row 0 k)) + ∑ k : Fin 2048, f (row 1 k)) + ∑ k : Fin 2048, f (row 2 k))
        + ∑ k : Fin 2048, f (row 3 k) = ∑ k : Fin 8192, f k := by
  rw [sum_stretches, Fin.sum_univ_four, zero_add]

/-! ## The vanishing second sum -/

/-- A finite value minus itself is zero. -/
theorem sub_self_of_finite {a : EReal} (h : ∃ r : ℝ, a = (r : EReal)) : a - a = 0 := by
  obtain ⟨r, rfl⟩ := h
  rw [← EReal.coe_sub, sub_self, EReal.coe_zero]

/-- A stretch's contribution: its partial sum plus the sum of the terms `w * (a - a)`, is the partial sum when every `a` is finite. -/
theorem stretch_sum {ι : Type*} [Fintype ι] (w a : ι → EReal) (h : ∀ k, ∃ r : ℝ, a k = (r : EReal)) :
    (∑ k, w k * a k) + (∑ k, w k * (a k - a k)) = ∑ k, w k * a k := by
  have hz : ∑ k, w k * (a k - a k) = 0 :=
    Finset.sum_eq_zero fun k _ => by rw [sub_self_of_finite (h k), mul_zero]
  rw [hz, add_zero]

end Cert.Pool

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«154385_j2482491097343_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.Payload.lean ====
/-
  What one grid step computes, read entry by entry over the extended reals.

  A step holds one batch's 2048 target ids (a column), 2048 of its source ids (a row) and the matching 2048 source rows
  of the array. It compares every target id with every source id (`hit`: 1 where they agree, else 0), adds to the
  running count of each target row the number of hits in its row, and adds to the running total of each target row and
  lane the sum over the source rows of `hit * x` plus a second sum of `hit * (x - x)` (the part of `x` a narrower format
  would have dropped, which is nothing here). The last step of a batch divides the total by the count plus a constant.
-/
import proofs.«154385_j2482491097343_2_alg».proof.Proof.Gen.KernelIdeal.Skeleton
import proofs.«154385_j2482491097343_2_alg».proof.Proof.Spec
import proofs.«154385_j2482491097343_2_alg».proof.Proof.LibPlainDot
import proofs.«154385_j2482491097343_2_alg».proof.Proof.LibColumn
import proofs.«154385_j2482491097343_2_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Pool.Pay

open Idealize.ShloMosaic Idealize.ShloMosaic.ValueIdx Cert.KernelIdeal Cert.KernelIdeal.Gen

/-- Whether staged target row `p` and staged source row `k` carry the same segment id, as 0 or 1. -/
def hit (x0 : Vec Ideal S1x2048x1 .i32) (x1 : Vec Ideal S1x1x2048 .i32) (p k : Fin 2048) : EReal :=
  Cert.Pool.bit (IntOp.cmpi .eq (x0 (ix3 (0 : Fin 1) p (0 : Fin 1))) (x1 (ix3 (0 : Fin 1) (0 : Fin 1) k)))

/-- The comparison table at `(p, k)`. -/
theorem table_apply (x0 : Vec Ideal S1x2048x1 .i32) (x1 : Vec Ideal S1x1x2048 .i32) (p k : Fin 2048) :
    k0_pay5 (F := Ideal) x0 x1 (ix2 p k) = hit x0 x1 p k := by
  unfold k0_pay5
  show FloatOps.sitofp (F := Ideal) .f32 ((IntOp.cmpi .eq (broadcastTo S2048x2048 (shapeCast S2048x1 x0 _) _ (ix2 p k))
    (broadcastTo S2048x2048 (shapeCast S1x2048 x1 _) _ (ix2 p k))).setWidth 32) = _
  rw [Cert.LibColumn.broadcastTo_a1_ab_apply, broadcastTo_1b_ab_apply, shapeCast_1ab_ab_apply, shapeCast_1ab_ab_apply]
  exact Cert.Pool.bit_signed _

/-- The dimension numbers the step's two products use are those of a plain `[2048, 2048] × [2048, 128]` product. -/
theorem dims_plain : dot_S2048x2048_S2048x128_S2048x128_1_0_0_1_n_n
    = Cert.LibPlainDot.plainDot 2048 2048 128 dot_S2048x2048_S2048x128_S2048x128_1_0_0_1_n_n_wf := rfl

/-- The running count after a step, at target row `p`: what it was plus the hits in row `p`. -/
theorem count_apply (x0 : Vec Ideal S1x2048x1 .i32) (x1 : Vec Ideal S1x1x2048 .i32) (v13 : Vec Ideal S2048x1 .f32)
    (p : Fin 2048) (u : Fin 1) :
    k0_pay6 (F := Ideal) x0 x1 v13 (ix2 p u) = v13 (ix2 p u) + ∑ k : Fin 2048, hit x0 x1 p k := by
  unfold k0_pay6
  show shapeCast S2048x1 (addf v13 (shapeCast S2048x1 (multiReduction .add [1] S2048 (k0_pay5 (F := Ideal) x0 x1) 0x00000000#32 _ _ _) _)) _ (ix2 p u) = _
  rw [shapeCast_self, addf_apply, Cert.LibColumn.shapeCast_a_a1_apply]
  refine congrArg (v13 (ix2 p u) + ·) ?_
  refine (Cert.LibRowReduce.rowSum_apply (k0_pay5 (F := Ideal) x0 x1) 0x00000000#32 reduces_S2048x2048_S2048 _ _ p).trans ?_
  exact Finset.sum_congr rfl fun k _ => table_apply x0 x1 p k

/-- The running total after a step, at target row `p` and lane `q`: what it was plus the step's two sums. -/
theorem total_apply (x0 : Vec Ideal S1x2048x1 .i32) (x1 : Vec Ideal S1x1x2048 .i32) (x2 : Vec Ideal S1x2048x128 .f32)
    (v27 : Vec Ideal S2048x128 .f32) (p : Fin 2048) (q : Fin 128) :
    k0_pay7 (F := Ideal) x0 x1 x2 v27 (ix2 p q)
      = v27 (ix2 p q) + ((∑ k : Fin 2048, hit x0 x1 p k * x2 (ix3 (0 : Fin 1) k q))
          + ∑ k : Fin 2048, hit x0 x1 p k * (x2 (ix3 (0 : Fin 1) k q) - x2 (ix3 (0 : Fin 1) k q))) := by
  unfold k0_pay7
  rw [dims_plain]
  show addf v27 (addf
      (FloatOps.matmul (Cert.LibPlainDot.plainDot 2048 2048 128 _) none (truncf .bf16 (k0_pay5 (F := Ideal) x0 x1) _)
        (truncf .bf16 (shapeCast S2048x128 x2 _) _) (constant S2048x128 .f32 0x00000000#32))
      (FloatOps.matmul (Cert.LibPlainDot.plainDot 2048 2048 128 _) none (truncf .bf16 (k0_pay5 (F := Ideal) x0 x1) _)
        (truncf .bf16 (subf (shapeCast S2048x128 x2 _) (shapeCast S2048x128 x2 _)) _) (constant S2048x128 .f32 0x00000000#32)))
    (ix2 p q) = _
  rw [addf_apply, addf_apply, Cert.LibPlainDot.matmul_zero_apply, Cert.LibPlainDot.matmul_zero_apply]
  simp only [truncf_apply, table_apply, subf_apply, shapeCast_1ab_ab_apply]

/-- The store of the running total passes it through unchanged. -/
theorem keep_eq (v : FVec Ideal S2048x128 .f32) : k0_pay1 (F := Ideal) v = v := by
  unfold k0_pay1
  exact shapeCast_self v _

/-- The quotient a batch's last step writes, at `(u, p, q)`: the total over the count plus the constant. -/
theorem quotient_apply (v38 : Vec Ideal S2048x128 .f32) (v39 : Vec Ideal S2048x1 .f32) (u : Fin 1) (p : Fin 2048) (q : Fin 128) :
    k0_pay2 (F := Ideal) v38 v39 (ix3 u p q) = Ideal.div (v38 (ix2 p q)) (v39 (ix2 p (0 : Fin 1)) + Cert.Pool.eps) := by
  unfold k0_pay2
  show shapeCast S1x2048x128 (divf v38 (broadcastTo S2048x128 (addf v39 (broadcast S2048x1 (Scalar.ofBits (F := Ideal) .f32 0x2EDBE6FF#32))) _)) _ (ix3 u p q) = _
  rw [shapeCast_ab_1ab_apply, divf_apply, Cert.LibColumn.broadcastTo_a1_ab_apply, addf_apply, broadcast_apply]
  rfl

/-- The total a batch's first step starts from is zero everywhere. -/
theorem zero_total_apply (j : S2048x128.Idx) : k0_pay3 (F := Ideal) j = 0 := by
  unfold k0_pay3
  show shapeCast S2048x128 (broadcast S2048x128 (Scalar.ofBits (F := Ideal) .f32 0x00000000#32)) _ j = 0
  rw [shapeCast_self, broadcast_apply]
  exact Ideal.ofBits_zero_f32

/-- The count a batch's first step starts from is zero everywhere. -/
theorem zero_count_apply (j : S2048x1.Idx) : k0_pay4 (F := Ideal) j = 0 := by
  unfold k0_pay4
  show shapeCast S2048x1 (broadcast S2048x1 (Scalar.ofBits (F := Ideal) .f32 0x00000000#32)) _ j = 0
  rw [shapeCast_self, broadcast_apply]
  exact Ideal.ofBits_zero_f32

end Cert.Pool.Pay

end
-- ==== Proof.Blocks.lean ====
/-
  What the kernel's three input windows hold at a grid point.

  The grid has 16 points `t = 4 * b + j`: `b = t / 4` is the batch and `j = t % 4` the stretch of 2048 source rows.
  At point `t` the first window holds the target ids of batch `b`; the second holds the source ids of batch `b` and
  stretch `j`, laid out along the last axis (the array it is cut from is the source ids with the last two axes swapped);
  the third holds the rows `2048 * j + k` of batch `b` of the float array. A block's coordinate on an axis is the block
  index times the block's extent plus the coordinate inside the block.
-/
import proofs.«154385_j2482491097343_2_alg».proof.Proof.Gen.KernelIdeal.Frame
import proofs.«154385_j2482491097343_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.Pool.Blk

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The batch of grid point `t`. -/
abbrev batchOf (t : Fin cfg0.N) : Fin 4 := ⟨t.val / 4, by have := t.isLt; have : cfg0.N = 16 := N_0; omega⟩
/-- The stretch of source rows of grid point `t`. -/
abbrev stretchOf (t : Fin cfg0.N) : Fin 4 := ⟨t.val % 4, Nat.mod_lt _ (by decide)⟩

/-- The first window's block index at every point: the batch, then zeros. -/
theorem index0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
/-- The second window's block index at every point: the batch, zero, the stretch. -/
theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)
/-- The third window's block index at every point: the batch, the stretch, zero. -/
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

/-- The first window at point `t` holds the target ids of the point's batch. -/
theorem tgt_block (c : Dev nD) (t : Fin cfg0.N) (p : Fin 2048) :
    (iblk m c 0 t : Vec F S1x2048x1 .i32) (ix3 (0 : Fin 1) p (0 : Fin 1))
      = m ((c : Thread nD τ).loc main_arg0) (ix3 (batchOf t) p (0 : Fin 1)) := by
  have hi := index0 t
  unfold iblk
  rw [View.read_apply]
  show V m c main_arg0 _ = _
  rw [V_main_arg0]
  refine congrArg _ (funext fun a => Fin.ext ?_)
  match a with
  | ⟨0, _⟩ => show win0_0.index t 0 * 1 + 1 * 0 = t.val / 4; rw [hi.1]; omega
  | ⟨1, _⟩ => show win0_0.index t 1 * 2048 + 1 * p.val = p.val; rw [hi.2.1]; omega
  | ⟨2, _⟩ => show win0_0.index t 2 * 1 + 1 * 0 = 0; rw [hi.2.2]

/-- The array the second window is cut from: the source ids with the last two axes swapped. -/
theorem V_main_v0 (c : Dev nD) :
    (V m c main_v0 : (⟨S4x1x8192, .i32⟩ : BufTy).Contents (Elt F))
      = transpose S4x1x8192 [0, 2, 1] (m ((c : Thread nD τ).loc main_arg1)) Gen.transposes_S4x8192x1_S4x1x8192_0_2_1 := by
  dsimp only [Gen.V, Gen.hostOps0]
  after_results

/-- The second window at point `t` holds the source ids of the point's batch and stretch, along the last axis. -/
theorem src_block (c : Dev nD) (t : Fin cfg0.N) (k : Fin 2048) :
    (iblk m c 1 t : Vec F S1x1x2048 .i32) (ix3 (0 : Fin 1) (0 : Fin 1) k)
      = m ((c : Thread nD τ).loc main_arg1) (ix3 (batchOf t) (Cert.Pool.row (stretchOf t) k) (0 : Fin 1)) := by
  have hi := index1 t
  unfold iblk
  rw [View.read_apply]
  show V m c main_v0 _ = _
  rw [V_main_v0]
  refine transpose_apply _ _ _ _ _ fun b => ?_
  match b with
  | ⟨0, _⟩ => show t.val / 4 = win0_1.index t 0 * 1 + 1 * 0; rw [hi.1]; omega
  | ⟨1, _⟩ => show 0 = win0_1.index t 1 * 1 + 1 * 0; rw [hi.2.1]
  | ⟨2, _⟩ => show 2048 * (t.val % 4) + k.val = win0_1.index t 2 * 2048 + 1 * k.val; rw [hi.2.2]; omega

/-- The third window at point `t` holds the point's stretch of rows of the point's batch of the float array. -/
theorem arr_block (c : Dev nD) (t : Fin cfg0.N) (k : Fin 2048) (q : Fin 128) :
    (iblk m c 2 t : Vec F S1x2048x128 .f32) (ix3 (0 : Fin 1) k q)
      = m ((c : Thread nD τ).loc main_arg2) (ix3 (batchOf t) (Cert.Pool.row (stretchOf t) k) q) := by
  have hi := index2 t
  unfold iblk
  rw [View.read_apply]
  show V m c main_arg2 _ = _
  rw [V_main_arg2]
  refine congrArg _ (funext fun a => Fin.ext ?_)
  match a with
  | ⟨0, _⟩ => show win0_2.index t 0 * 1 + 1 * 0 = t.val / 4; rw [hi.1]; omega
  | ⟨1, _⟩ => show win0_2.index t 1 * 2048 + 1 * k.val = 2048 * (t.val % 4) + k.val; rw [hi.2.1]; omega
  | ⟨2, _⟩ => show win0_2.index t 2 * 128 + 1 * q.val = q.val; rw [hi.2.2]; omega

end Cert.Pool.Blk

end
-- ==== Proof.Totals.lean ====
/-
  The running total and the running count over the extended reals, in terms of the argument arrays.

  After the step that handles stretch `j` of batch `b` the total at target row `p` and lane `q` is the sum, over the
  stretches up to `j`, of the stretch's sum of `same * x`; the count is the sum of the stretches' hits. After the fourth
  stretch these are the sums over all 8192 source rows, and the block that step writes is the pooled mean. The array
  entries are finite, which is what makes each stretch's second sum (of `same * (x - x)`) vanish.
-/
import proofs.«154385_j2482491097343_2_alg».proof.Proof.Steps
import proofs.«154385_j2482491097343_2_alg».proof.Proof.Payload
import proofs.«154385_j2482491097343_2_alg».proof.Proof.Blocks
import proofs.«154385_j2482491097343_2_alg».proof.Proof.Spec

noncomputable section

open scoped BigOperators

namespace Cert.Pool.Acc

open Idealize.ShloMosaic Idealize.ShloMosaic.TcCoe Idealize.ShloMosaic.ValueIdx Idealize.SL.Sem Cert.KernelIdeal Cert.KernelIdeal.Gen
open Cert.Pool

/-! ## One step, over any staged blocks that are the right slices of the arrays -/

section OneStep
variable (x0 : Vec Ideal S1x2048x1 .i32) (x1 : Vec Ideal S1x1x2048 .i32) (x2 : Vec Ideal S1x2048x128 .f32)
  (tg : STgt.Idx → BitVec 32) (sr : SSrc.Idx → BitVec 32) (ar : SArr.Idx → EReal) (b j : Fin 4)
  (h0 : ∀ p : Fin 2048, x0 (ix3 (0 : Fin 1) p (0 : Fin 1)) = tg (ix3 b p (0 : Fin 1)))
  (h1 : ∀ k : Fin 2048, x1 (ix3 (0 : Fin 1) (0 : Fin 1) k) = sr (ix3 b (row j k) (0 : Fin 1)))
  (h2 : ∀ (k : Fin 2048) (q : Fin 128), x2 (ix3 (0 : Fin 1) k q) = ar (ix3 b (row j k) q))

include h0 h1 in
/-- The staged comparison is the arrays' membership test. -/
theorem hit_eq (p k : Fin 2048) : Pay.hit x0 x1 p k = same tg sr b p (row j k) := by
  unfold Pay.hit same
  rw [h0, h1]

include h0 h1 h2 in
/-- A step adds its stretch's sum of `same * x` to the total. -/
theorem total_step (hfin : ∀ i, ∃ r : ℝ, ar i = (r : EReal)) (acc : Vec Ideal S2048x128 .f32) (p : Fin 2048) (q : Fin 128) :
    Step.totalAfter x0 x1 x2 acc (ix2 p q)
      = acc (ix2 p q) + ∑ k : Fin 2048, same tg sr b p (row j k) * ar (ix3 b (row j k) q) := by
  show k0_pay1 (F := Ideal) (k0_pay7 x0 x1 x2 acc) (ix2 p q) = _
  rw [Pay.keep_eq, Pay.total_apply]
  simp only [hit_eq x0 x1 tg sr b j h0 h1, h2]
  rw [stretch_sum _ _ (fun k => hfin _)]

include h0 h1 in
/-- A step adds its stretch's hits to the count. -/
theorem count_step (cnt : Vec Ideal S2048x1 .f32) (p : Fin 2048) (u : Fin 1) :
    Step.countAfter x0 x1 cnt (ix2 p u) = cnt (ix2 p u) + ∑ k : Fin 2048, same tg sr b p (row j k) := by
  show k0_pay6 (F := Ideal) x0 x1 cnt (ix2 p u) = _
  rw [Pay.count_apply]
  simp only [hit_eq x0 x1 tg sr b j h0 h1]

end OneStep

/-! ## The steps of one batch -/

variable (m : (ℓ : Loc nD τ sig) → Buf (Elt Ideal) ℓ)

/-- The three argument arrays on core `c`. -/
abbrev tgt (c : Dev nD) : STgt.Idx → BitVec 32 := m ((c : Thread nD τ).loc main_arg0)
abbrev src (c : Dev nD) : SSrc.Idx → BitVec 32 := m ((c : Thread nD τ).loc main_arg1)
abbrev arr (c : Dev nD) : SArr.Idx → EReal := m ((c : Thread nD τ).loc main_arg2)

/-- Stretch `j`'s sum of `same * x` for batch `b`, target row `p`, lane `q` (zero past the fourth stretch). -/
def part (c : Dev nD) (b : Fin 4) (p : Fin 2048) (q : Fin 128) (j : ℕ) : EReal :=
  if h : j < 4 then ∑ k : Fin 2048, same (tgt m c) (src m c) b p (row ⟨j, h⟩ k) * arr m c (ix3 b (row ⟨j, h⟩ k) q) else 0

/-- Stretch `j`'s hits for batch `b` and target row `p` (zero past the fourth stretch). -/
def hits (c : Dev nD) (b : Fin 4) (p : Fin 2048) (j : ℕ) : EReal :=
  if h : j < 4 then ∑ k : Fin 2048, same (tgt m c) (src m c) b p (row ⟨j, h⟩ k) else 0

section AtPoint
variable (c : Dev nD) (b : Fin 4) (j : ℕ) (hj : j < 4) (h : 4 * b.val + j < cfg0.N)

include hj in
/-- The point of stretch `j` of batch `b` stages the slices of the arrays that belong to that batch and stretch. -/
theorem staged_tgt (p : Fin 2048) :
    (iblk m c 0 ⟨4 * b.val + j, h⟩ : Vec Ideal S1x2048x1 .i32) (ix3 (0 : Fin 1) p (0 : Fin 1)) = tgt m c (ix3 b p (0 : Fin 1)) := by
  have hb : Blk.batchOf ⟨4 * b.val + j, h⟩ = b := Fin.ext (by show (4 * b.val + j) / 4 = b.val; omega)
  rw [Blk.tgt_block m c ⟨4 * b.val + j, h⟩ p, hb]

theorem staged_src (k : Fin 2048) :
    (iblk m c 1 ⟨4 * b.val + j, h⟩ : Vec Ideal S1x1x2048 .i32) (ix3 (0 : Fin 1) (0 : Fin 1) k) = src m c (ix3 b (row ⟨j, hj⟩ k) (0 : Fin 1)) := by
  have hb : Blk.batchOf ⟨4 * b.val + j, h⟩ = b := Fin.ext (by show (4 * b.val + j) / 4 = b.val; omega)
  have hs : Blk.stretchOf ⟨4 * b.val + j, h⟩ = ⟨j, hj⟩ := Fin.ext (by show (4 * b.val + j) % 4 = j; omega)
  rw [Blk.src_block m c ⟨4 * b.val + j, h⟩ k, hb, hs]

theorem staged_arr (k : Fin 2048) (q : Fin 128) :
    (iblk m c 2 ⟨4 * b.val + j, h⟩ : Vec Ideal S1x2048x128 .f32) (ix3 (0 : Fin 1) k q) = arr m c (ix3 b (row ⟨j, hj⟩ k) q) := by
  have hb : Blk.batchOf ⟨4 * b.val + j, h⟩ = b := Fin.ext (by show (4 * b.val + j) / 4 = b.val; omega)
  have hs : Blk.stretchOf ⟨4 * b.val + j, h⟩ = ⟨j, hj⟩ := Fin.ext (by show (4 * b.val + j) % 4 = j; omega)
  rw [Blk.arr_block m c ⟨4 * b.val + j, h⟩ k q, hb, hs]

end AtPoint

/-- The total after stretch `j` of batch `b`: the sum of the stretches' parts up to `j`. -/
theorem total_run (c : Dev nD) (hfin : ∀ i, ∃ r : ℝ, arr m c i = (r : EReal)) (b : Fin 4) (p : Fin 2048) (q : Fin 128) :
    ∀ (j : ℕ) (hj : j < 4) (h : 4 * b.val + j < cfg0.N),
      Step.totalAt m c (4 * b.val + j) h (ix2 p q) = ∑ j' ∈ Finset.range (j + 1), part m c b p q j'
  | 0, hj, h => by
    have e := Step.total_first m c ⟨4 * b.val + 0, h⟩ (by show (4 * b.val + 0) % 4 = 0; omega) (by show ¬(4 * b.val + 0) % 4 = 3; omega)
    refine (congrFun e (ix2 p q)).trans ?_
    rw [total_step _ _ _ (tgt m c) (src m c) (arr m c) b ⟨0, hj⟩ (staged_tgt m c b 0 hj h) (staged_src m c b 0 hj h)
      (staged_arr m c b 0 hj h) hfin, Pay.zero_total_apply, zero_add, Finset.sum_range_one]
    unfold part
    rw [dif_pos hj]
  | j + 1, hj, h => by
    have ih := total_run c hfin b p q j (by omega) (by omega)
    have e := Step.total_next m c ⟨4 * b.val + (j + 1), h⟩ (by show ¬(4 * b.val + (j + 1)) % 4 = 0; omega)
    refine (congrFun e (ix2 p q)).trans ?_
    rw [total_step _ _ _ (tgt m c) (src m c) (arr m c) b ⟨j + 1, hj⟩ (staged_tgt m c b (j + 1) hj h) (staged_src m c b (j + 1) hj h)
      (staged_arr m c b (j + 1) hj h) hfin, Finset.sum_range_succ _ (j + 1),
      Step.totalAt_congr m c (show 4 * b.val + (j + 1) - 1 = 4 * b.val + j by omega) _ (by omega), ih]
    unfold part
    rw [dif_pos hj]

/-- The count after stretch `j` of batch `b`: the sum of the stretches' hits up to `j`. -/
theorem count_run (c : Dev nD) (b : Fin 4) (p : Fin 2048) (u : Fin 1) :
    ∀ (j : ℕ) (hj : j < 4) (h : 4 * b.val + j < cfg0.N),
      Step.countAt m c (4 * b.val + j) h (ix2 p u) = ∑ j' ∈ Finset.range (j + 1), hits m c b p j'
  | 0, hj, h => by
    have e := Step.count_first m c ⟨4 * b.val + 0, h⟩ (by show (4 * b.val + 0) % 4 = 0; omega) (by show ¬(4 * b.val + 0) % 4 = 3; omega)
    refine (congrFun e (ix2 p u)).trans ?_
    rw [count_step _ _ (tgt m c) (src m c) b ⟨0, hj⟩ (staged_tgt m c b 0 hj h) (staged_src m c b 0 hj h),
      Pay.zero_count_apply, zero_add, Finset.sum_range_one]
    unfold hits
    rw [dif_pos hj]
  | j + 1, hj, h => by
    have ih := count_run c b p u j (by omega) (by omega)
    have e := Step.count_next m c ⟨4 * b.val + (j + 1), h⟩ (by show ¬(4 * b.val + (j + 1)) % 4 = 0; omega)
    refine (congrFun e (ix2 p u)).trans ?_
    rw [count_step _ _ (tgt m c) (src m c) b ⟨j + 1, hj⟩ (staged_tgt m c b (j + 1) hj h) (staged_src m c b (j + 1) hj h),
      Finset.sum_range_succ _ (j + 1),
      Step.countAt_congr m c (show 4 * b.val + (j + 1) - 1 = 4 * b.val + j by omega) _ (by omega), ih]
    unfold hits
    rw [dif_pos hj]

/-- The four parts make the sum over all source rows. -/
theorem parts_eq_sum (c : Dev nD) (b : Fin 4) (p : Fin 2048) (q : Fin 128) :
    ∑ j' ∈ Finset.range (3 + 1), part m c b p q j' = ∑ k : Fin 8192, same (tgt m c) (src m c) b p k * arr m c (ix3 b k q) := by
  rw [sum_stretches, ← Fin.sum_univ_eq_sum_range (fun j' => part m c b p q j') 4]
  refine Finset.sum_congr rfl fun j _ => ?_
  unfold part
  rw [dif_pos j.isLt]

/-- The four stretches' hits make the number of matching source rows. -/
theorem hits_eq_sum (c : Dev nD) (b : Fin 4) (p : Fin 2048) :
    ∑ j' ∈ Finset.range (3 + 1), hits m c b p j' = ∑ k : Fin 8192, same (tgt m c) (src m c) b p k := by
  rw [sum_stretches, ← Fin.sum_univ_eq_sum_range (fun j' => hits m c b p j') 4]
  refine Finset.sum_congr rfl fun j _ => ?_
  unfold hits
  rw [dif_pos j.isLt]

/-- THE BLOCK A BATCH'S LAST STEP WRITES is the pooled mean of that batch. -/
theorem block_eq (c : Dev nD) (hfin : ∀ i, ∃ r : ℝ, arr m c i = (r : EReal)) (t : Fin cfg0.N) (h3 : t.val % 4 = 3)
    (u : Fin 1) (p : Fin 2048) (q : Fin 128) :
    ((outsAt0 m c t.val t.isLt).1 : Vec Ideal S1x2048x128 .f32) (ix3 u p q)
      = pooled (tgt m c) (src m c) (arr m c) (ix3 (Blk.batchOf t) p q) := by
  have hN : cfg0.N = 16 := N_0
  have ht := t.isLt
  have hv : t.val = 4 * (Blk.batchOf t).val + 3 := by show t.val = 4 * (t.val / 4) + 3; omega
  have e := Step.block_last m c t (by omega) h3
  refine (congrFun e (ix3 u p q)).trans ?_
  rw [← Step.total_last m c t (by omega) h3, ← Step.count_last m c t (by omega) h3, Pay.quotient_apply,
    Step.totalAt_congr m c hv t.isLt (by omega), Step.countAt_congr m c hv t.isLt (by omega),
    total_run m c hfin (Blk.batchOf t) p q 3 (by decide) (by omega), count_run m c (Blk.batchOf t) p 0 3 (by decide) (by omega),
    parts_eq_sum, hits_eq_sum, pooled_apply]
  rfl

end Cert.Pool.Acc

end
-- ==== Proof.Cover.lean ====
/-
  The result array after the run, from what the write-backs hold.

  The output window is written back exactly at the grid points `t` with `t % 4 = 3`, the last point of each batch.
  Its block at point `t` is the slab `(t / 4, 0 .. 2047, 0 .. 127)` of the result array, so the four write-backs tile
  the array: index `(b, p, q)` lies in the block of point `4 * b + 3`. Hence, if what each write-back holds is the
  slab of one function `G` of the whole array, the array ends holding `G`.
-/
import proofs.«154385_j2482491097343_2_alg».proof.Proof.Gen.KernelIdeal.Value
import proofs.«154385_j2482491097343_2_alg».proof.Proof.Blocks
import Idealize.ShloMosaic.Lib.Pipeline.Value
import Idealize.ShloMosaic.Lib.ValueIdx

noncomputable section

namespace Cert.Pool.Cov

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The output window's block index at every point: the batch, then zeros. -/
theorem index3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- What a write-back point writes is its block of `G`, when what the point holds is the batch's slab of `G`. -/
theorem flushed3_eq (c : Dev nD) (G : S4x2048x128.Idx → Elt F .f32)
    (hblk : ∀ (t : Fin cfg0.N), t.val % 4 = 3 → ∀ (u : Fin 1) (p : Fin 2048) (q : Fin 128),
      ((outsAt0 m c t.val t.isLt).1 : Vec F S1x2048x128 .f32) (ix3 u p q) = G (ix3 (Cert.Pool.Blk.batchOf t) p q))
    (t : Fin cfg0.N) (hf : (cfg0.win 3).flush t = true) :
    (dats m 0 c).flushed 3 t = ((cfg0.win 3).blk t).view.read (Elt F) G := by
  show (cfg0.win 3).cut (grid0.coords t) ((dats m 0 c).after 3 t) = _
  rw [after0_3]
  funext y
  obtain ⟨u, p, q, rfl⟩ : ∃ (u : Fin 1) (p : Fin 2048) (q : Fin 128), y = ix3 u p q :=
    ⟨y 0, y 1, y 2, eq_ix3 (n0 := 1) (n1 := 2048) (n2 := 128) y⟩
  rw [View.read_apply]
  show ((outsAt0 m c t.val t.isLt).1 : Vec F S1x2048x128 .f32) (ix3 u p q) = G _
  rw [hblk t ((flush0_3 t).mp hf) u p q]
  refine congrArg G (funext fun a => Fin.ext ?_)
  have hi := index3 t
  have hu : u.val = 0 := by omega
  match a with
  | ⟨0, _⟩ => show t.val / 4 = win0_3.index t 0 * 1 + 1 * u.val; rw [hi.1]; omega
  | ⟨1, _⟩ => show p.val = win0_3.index t 1 * 2048 + 1 * p.val; rw [hi.2.1]; omega
  | ⟨2, _⟩ => show q.val = win0_3.index t 2 * 128 + 1 * q.val; rw [hi.2.2]; omega

/-- An index of the result array is in point `t`'s block iff each coordinate is in the block's range on its axis. -/
theorem mem_blk3 (t : Fin cfg0.N) (i : S4x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v1).slice (win0_3.rect t)).set ↔ _
  rw [View.set_slice_whole, Rect.mem_set_unit]
  exact Iff.rfl

/-- Every index of the result array is in the block of a write-back point: `(b, p, q)` in that of point `4 * b + 3`. -/
theorem cover3 (i : S4x2048x128.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 128 := (i 2).isLt
  have hN : cfg0.N = 16 := N_0
  obtain ⟨t, ht⟩ : ∃ t : Fin cfg0.N, t.val = 4 * (i 0).val + 3 := ⟨⟨4 * (i 0).val + 3, by omega⟩, rfl⟩
  refine ⟨t, (flush0_3 t).mpr (by omega), ?_⟩
  rw [mem_blk3]
  have hi := index3 t
  intro a
  match a with
  | ⟨0, _⟩ =>
    show win0_3.index t 0 * 1 ≤ (i 0).val ∧ (i 0).val < win0_3.index t 0 * 1 + 1
    rw [hi.1]; omega
  | ⟨1, _⟩ =>
    show win0_3.index t 1 * 2048 ≤ (i 1).val ∧ (i 1).val < win0_3.index t 1 * 2048 + 2048
    rw [hi.2.1]; omega
  | ⟨2, _⟩ =>
    show win0_3.index t 2 * 128 ≤ (i 2).val ∧ (i 2).val < win0_3.index t 2 * 128 + 128
    rw [hi.2.2]; omega

/-- The result array after the run is `G`, when what each write-back point holds is its batch's slab of `G`. -/
theorem final3 (c : Dev nD) (G : S4x2048x128.Idx → Elt F .f32)
    (hblk : ∀ (t : Fin cfg0.N), t.val % 4 = 3 → ∀ (u : Fin 1) (p : Fin 2048) (q : Fin 128),
      ((outsAt0 m c t.val t.isLt).1 : Vec F S1x2048x128 .f32) (ix3 u p q) = G (ix3 (Cert.Pool.Blk.batchOf t) p q)) :
    (dats m 0 c).arrAt 3 cfg0.N = G :=
  (dats m 0 c).arrAt_eq_of_cover 3 G (fun t hf => flushed3_eq m c G hblk t hf) cover3

end Cert.Pool.Cov

end
-- ==== Proof.KernelRun.lean ====
/-
  The kernel's run, read: the result array ends holding the pooled mean of the three argument arrays, which end
  unchanged. Each batch's last grid step writes the batch's slab of the pooled mean, and those four slabs tile the
  result array.
-/
import proofs.«154385_j2482491097343_2_alg».proof.Proof.Totals
import proofs.«154385_j2482491097343_2_alg».proof.Proof.Cover
import proofs.«154385_j2482491097343_2_alg».proof.Proof.Gen.KernelIdeal.Value

noncomputable section

namespace Cert.Pool.Kern

open Idealize.ShloMosaic Idealize.ShloMosaic.TcCoe Idealize.ShloMosaic.ValueIdx Idealize.SL.Sem Cert.KernelIdeal Cert.KernelIdeal.Gen
open Cert.Pool

variable (m : (ℓ : Loc nD τ sig) → Buf (Elt Ideal) ℓ) (ρ : Dev nD → PrngReg)

/-- The result array after the run is the pooled mean, when the float argument is finite. -/
theorem final (c : Dev nD) (hfin : ∀ i, ∃ r : ℝ, Acc.arr m c i = (r : EReal)) :
    (dats m 0 c).arrAt 3 cfg0.N = pooled (Acc.tgt m c) (Acc.src m c) (Acc.arr m c) :=
  Cov.final3 m c (pooled (Acc.tgt m c) (Acc.src m c) (Acc.arr m c)) fun t h3 u p q => Acc.block_eq m c hfin t h3 u p q

/-- Every weakly fair execution of the kernel's program ends with the result array at the pooled mean and the
    arguments unchanged, when the float argument is finite on every core. -/
theorem run (hfin : ∀ (c : Dev nD) i, ∃ r : ℝ, Acc.arr m c i = (r : EReal)) :
    θ_run defs (onTc (τ := τ) (main (F := Ideal))) ⟨m, fun _ => 0, ρ⟩ fun r => ∀ c : Dev nD,
      r.2.mem ((c : Thread nD τ).loc main_v1) = pooled (Acc.tgt m c) (Acc.src m c) (Acc.arr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c)), (h c).2⟩) (Cert.KernelIdeal.Value.run_blocks m ρ)

end Cert.Pool.Kern

end
-- ==== Proof.RefSide.lean ====
/-
  The reference program computes the pooled mean.

  Reading the reference's result at batch `b`, target row `n`, lane `d` through its operations one at a time:
  the quotient of a contraction over the 8192 source rows by a row count plus a small constant. The reshapes and
  broadcasts only move indices, so the compared words are the target id at `(b, n, 0)` and the source id at `(b, k, 0)`,
  and the multiplied entry is `x (b, k, d)`.
-/
import proofs.«154385_j2482491097343_2_alg».proof.Proof.Gen.ReferenceIdeal.Read
import proofs.«154385_j2482491097343_2_alg».proof.Proof.Spec

noncomputable section

open scoped BigOperators

namespace Cert.Pool.Ref

open Idealize.ShloMosaic Idealize.ShloMosaic.ValueIdx Cert.ReferenceIdeal Cert.ReferenceIdeal.Gen Cert.ReferenceIdeal.Read

/-- The broadcast target ids at `(b, n, k)` are the target id of row `n`. -/
theorem tgt_at (x0 : (⟨S4x2048x1, .i32⟩ : BufTy).Contents (Elt Ideal)) (b : Fin 4) (n : Fin 2048) (k : Fin 8192) :
    val_main_v4 (F := Ideal) x0 (ix3 b n k) = x0 (ix3 b n (0 : Fin 1)) := by
  rw [val_main_v4_apply, val_main_v1_apply, val_main_v0_apply]
  refine congrArg x0 (funext fun a => Fin.ext ?_)
  have hb := b.isLt
  have hn := n.isLt
  match a with
  | ⟨0, _⟩ => show (b.val * 2048 + n.val) / 2048 = b.val; omega
  | ⟨1, _⟩ => show (b.val * 2048 + n.val) / 1 % 2048 = n.val; omega
  | ⟨2, _⟩ => rfl

/-- The broadcast source ids at `(b, n, k)` are the source id of row `k`. -/
theorem src_at (x1 : (⟨S4x8192x1, .i32⟩ : BufTy).Contents (Elt Ideal)) (b : Fin 4) (n : Fin 2048) (k : Fin 8192) :
    val_main_v5 (F := Ideal) x1 (ix3 b n k) = x1 (ix3 b k (0 : Fin 1)) := by
  rw [val_main_v5_apply, val_main_v3_apply, val_main_v2_apply]
  refine congrArg x1 (funext fun a => Fin.ext ?_)
  have hb := b.isLt
  have hk := k.isLt
  match a with
  | ⟨0, _⟩ => show (b.val * 8192 + k.val) / 8192 = b.val; omega
  | ⟨1, _⟩ => show (b.val * 8192 + k.val) / 1 % 8192 = k.val; omega
  | ⟨2, _⟩ => rfl

/-- The converted comparison at `(b, n, k)` is the membership bit. -/
theorem mask_at (x0 : (⟨S4x2048x1, .i32⟩ : BufTy).Contents (Elt Ideal)) (x1 : (⟨S4x8192x1, .i32⟩ : BufTy).Contents (Elt Ideal))
    (b : Fin 4) (n : Fin 2048) (k : Fin 8192) :
    val_main_v7 (F := Ideal) x0 x1 (ix3 b n k) = same x0 x1 b n k := by
  rw [val_main_v7_apply, val_main_v6_apply, tgt_at, src_at]
  rfl

/-- The contraction's left index at `(b, n, d)` and row `k`. -/
theorem lidx_at (b : Fin 4) (n : Fin 2048) (d : Fin 128) (k : Fin 8192) :
    lidx_main_v12 (ix3 b n d) k = ix3 b n k := by
  funext a
  match a with
  | ⟨0, _⟩ => rfl
  | ⟨1, _⟩ => rfl
  | ⟨2, _⟩ => rfl

/-- The contraction's right index at `(b, n, d)` and row `k`. -/
theorem ridx_at (b : Fin 4) (n : Fin 2048) (d : Fin 128) (k : Fin 8192) :
    ridx_main_v12 (ix3 b n d) k = ix3 b k d := by
  funext a
  match a with
  | ⟨0, _⟩ => rfl
  | ⟨1, _⟩ => rfl
  | ⟨2, _⟩ => rfl

/-- The row count's index at `(b, n, d)` and row `k`, through the two broadcasts. -/
theorem cidx_at (b : Fin 4) (n : Fin 2048) (d : Fin 128) (k : Fin 8192) :
    idx_main_v8 (idx_main_v9 (idx_main_v13 (ix3 b n d))) k = ix3 b n k := by
  funext a
  match a with
  | ⟨0, _⟩ => rfl
  | ⟨1, _⟩ => rfl
  | ⟨2, _⟩ => rfl

/-- The reference's result is the pooled mean of its three arguments. -/
theorem reference_eq (x0 : (⟨S4x2048x1, .i32⟩ : BufTy).Contents (Elt Ideal))
    (x1 : (⟨S4x8192x1, .i32⟩ : BufTy).Contents (Elt Ideal))
    (x2 : (⟨S4x8192x128, .f32⟩ : BufTy).Contents (Elt Ideal)) :
    val_main_v14 (F := Ideal) x0 x1 x2 = Cert.Pool.pooled x0 x1 x2 := by
  funext i
  obtain ⟨b, n, d, rfl⟩ : ∃ b n d, i = ix3 b n d := ⟨i 0, i 1, i 2, eq_ix3 i⟩
  rw [pooled_apply, val_main_v14_apply, val_main_v12_apply, val_main_v13_apply, val_main_v11_apply,
    val_main_v9_apply, val_main_v8_apply, val_main_v10_apply, val_main_cst_0_apply, val_main_cst_apply]
  simp only [lidx_at, ridx_at, cidx_at, mask_at]
  rw [Ideal.hostDivf_def, Ideal.addf_def, Ideal.ofBits_def, Ideal.ofBits_def, Ideal.ofBits_zero_f32, zero_add]
  rfl

end Cert.Pool.Ref

end
-- ==== Proof.Finite.lean ====
/-
  Under the stated precondition every entry of the float argument is a real number.

  The precondition says that the conjunction, over all entries `x` of the float argument, of `|x| < +∞` is true.
  A conjunction that is true is true at every entry; and an extended real whose absolute value (the larger of `x`
  and `-x`) is below `+∞` is neither infinity, hence a real number.
-/
import proofs.«154385_j2482491097343_2_alg».proof.Pre_finite_inputs
import Idealize.ShloMosaic.Lib.ReduceAll
import Idealize.ShloMosaic.Lib.ValueIdx
import Idealize.ShloMosaic.PureOps.Ideal

noncomputable section

namespace Cert.Pool.Fin

open Idealize.ShloMosaic

/-- The scalar shape has one index. -/
instance : Subsingleton Cert.Pre_finite_inputs.S_.Idx := ⟨fun a b => funext fun d => d.elim0⟩

/-- An extended real with `max x (-x) < ⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The precondition makes every entry of the float argument a real number. -/
theorem finite_of_pre [Cert.Pre_finite_inputs.Facts]
    (x0 : IVec Cert.Pre_finite_inputs.S4x2048x1 32) (x1 : IVec Cert.Pre_finite_inputs.S4x8192x1 32)
    (x2 : FVec Ideal Cert.Pre_finite_inputs.S4x8192x128 .f32)
    (h : Cert.Pre_finite_inputs.fn (F := Ideal) x0 x1 x2 = (fun _ => 1#1)) :
    ∀ i, ∃ r : ℝ, x2 i = (r : EReal) := by
  intro i
  have h0 := congrFun h ValueIdx.ix0
  dsimp only [Cert.Pre_finite_inputs.fn] at h0
  have hi := Host.reduce_andi_all _ _ _ _ _ h0 i
  have htop : Ideal.ofBits .f32 0x7F800000#32 = ⊤ := by simp [Ideal.ofBits, Ideal.ieee]
  have hc : Ideal.cmp .olt (max (x2 i : EReal) (-(x2 i : EReal))) (Ideal.ofBits .f32 0x7F800000#32) = 1#1 := hi
  rw [htop] at hc
  unfold Ideal.cmp at hc
  refine real_of_abs_lt_top (x2 i) ?_
  by_contra hn
  simp [hn] at hc

end Cert.Pool.Fin

end
-- ==== Proof.lean ====
/-
  The certificate of the pooled-mean kernel against its reference.

  Both programs compute, for every batch `b`, target row `n` and lane `d`, the sum over the source rows `k` whose
  segment id equals that of target row `n` of `x (b, k, d)`, divided by the number of such rows plus a small constant.
  The reference does it at once over the 8192 source rows; the kernel goes through them in four stretches of 2048 per
  batch, carrying a running total and a running count, and adds to each stretch a second product whose terms are
  `same * (x - x)`. Over the extended reals sums re-associate freely, and the second product vanishes because the
  precondition makes every `x` finite; so the two results are one function of the arguments. The kernel's idealization
  replaced two round trips through a narrower float format by the value itself: the two ledger entries.
-/
import proofs.«154385_j2482491097343_2_alg».proof.Defs
import proofs.«154385_j2482491097343_2_alg».proof.Proof.Gen.Kernel
import proofs.«154385_j2482491097343_2_alg».proof.Proof.Gen.Kernel.Skeleton
import proofs.«154385_j2482491097343_2_alg».proof.Proof.Gen.Kernel.Launch
import proofs.«154385_j2482491097343_2_alg».proof.Proof.Gen.Kernel.Points
import proofs.«154385_j2482491097343_2_alg».proof.Proof.Gen.Kernel.Frame
import proofs.«154385_j2482491097343_2_alg».proof.Proof.Gen.KernelIdeal
import proofs.«154385_j2482491097343_2_alg».proof.Proof.Gen.KernelIdeal.Skeleton
import proofs.«154385_j2482491097343_2_alg».proof.Proof.Gen.KernelIdeal.Launch
import proofs.«154385_j2482491097343_2_alg».proof.Proof.Gen.KernelIdeal.Points
import proofs.«154385_j2482491097343_2_alg».proof.Proof.Gen.KernelIdeal.Frame
import proofs.«154385_j2482491097343_2_alg».proof.Proof.Gen.ReferenceIdeal
import proofs.«154385_j2482491097343_2_alg».proof.Proof.Gen.Pre_finite_inputs
import proofs.«154385_j2482491097343_2_alg».proof.Proof.Gen.KernelIdeal.Value
import proofs.«154385_j2482491097343_2_alg».proof.Proof.Gen.ReferenceIdeal.Run
import proofs.«154385_j2482491097343_2_alg».proof.Proof.Gen.ReferenceIdeal.Read
import proofs.«154385_j2482491097343_2_alg».proof.Proof.KernelRun
import proofs.«154385_j2482491097343_2_alg».proof.Proof.RefSide
import proofs.«154385_j2482491097343_2_alg».proof.Proof.Finite
import Idealize.ShloMosaic.Adequacy
import Idealize.ShloMosaic.Init

noncomputable section

namespace Cert.Proof

open Idealize.ShloMosaic Idealize.ShloMosaic.TcCoe Idealize.SL.Sem

/-- The three programs run, fault-free, and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two ledger entries: narrowing a value to the shorter format and widening it back is the identity on extended
    reals, and the rounding through the shorter format on words. -/
theorem preserves : Cert.preserves_Kernel_KernelIdeal :=
  ⟨IdealRules.truncf_extf.statement Cert.KernelIdeal.S2048x2048 .f32 .bf16,
    IdealRules.truncf_extf.statement Cert.KernelIdeal.S2048x128 .f32 .bf16⟩

/-- From memories that agree on the arguments, with the float argument finite, both programs end with the result
    array at the pooled mean of the arguments. -/
theorem algebraic : Cert.algebraic_KernelIdeal_ReferenceIdeal := by
  intro m ρ m' ρ' hpre hagree
  have hfin : ∀ (c : Dev Cert.KernelIdeal.nD) i, ∃ r : ℝ, Cert.Pool.Acc.arr m c i = (r : EReal) :=
    fun c => Cert.Pool.Fin.finite_of_pre _ _ _ (hpre c)
  refine ⟨fun c => Cert.Pool.pooled (Cert.Pool.Acc.tgt m c) (Cert.Pool.Acc.src m c) (Cert.Pool.Acc.arr m c),
    Cert.Pool.Kern.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Pool.Ref.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
